-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x512 .f32) (main_arg1 : FVec F S512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x512 : Shape := ⟨2, ![65536, 512]⟩
abbrev S512x512 : Shape := ⟨2, ![512, 512]⟩
abbrev S512x128 : Shape := ⟨2, ![512, 128]⟩
abbrev S4096x512 : Shape := ⟨2, ![4096, 512]⟩
abbrev S32x128 : Shape := ⟨2, ![32, 128]⟩
abbrev S1024x512 : Shape := ⟨2, ![1024, 512]⟩
abbrev S1024 : Shape := ⟨1, ![1024]⟩
abbrev S1024x1 : Shape := ⟨2, ![1024, 1]⟩
abbrev S8x128 : Shape := ⟨2, ![8, 128]⟩
abbrev S65536x1 : Shape := ⟨2, ![65536, 1]⟩

abbrev nBuf : Space → Nat
  | .hbm => 5
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512x512, .bf16⟩
  | .hbm, ⟨3, _⟩ => ⟨S512x128, .f32⟩
  | .hbm, ⟨4, _⟩ => ⟨S65536x1, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S32x128, .f32⟩
  | .local _ .vmem, ⟨4, _⟩ => ⟨S32x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v3 : BitVec 32 := Scalar.muli arg4 c1024_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32 : BitVec 32 := 1024#32
  let v3 : BitVec 32 := Scalar.muli arg4 c1024_i32
  let v4 : BitVec 32 := v3
  let v5 : Index := Scalar.indexCast v4
  let c0_2 : Index := 0#32
  ![v5.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v12 : BitVec 32 := Scalar.muli arg4 c8_i32
  v12
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v12 : BitVec 32 := Scalar.muli arg4 c8_i32
  let v13 : BitVec 32 := v12
  let v15 : Index := Scalar.indexCast v13
  let c0_4 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1024x512 : 0 < S1024x512.numel
  reduces_S1024x512_S1024 : S1024x512.Reduces [1] S1024
  shapeCasts_S1024_S1024x1 : S1024.ShapeCasts S1024x1
  shapeCasts_S1024x1_S8x128 : S1024x1.ShapeCasts S8x128
  h_S8x128 : 0 < S8x128.numel
  shapeCasts_S512x128_S65536x1 : S512x128.ShapeCasts S65536x1
  dot_S1024x512_S512x512_S1024x512_1_0_0_1_n_n_wf : DotDims.WF S1024x512 S512x512 S1024x512 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S4096x512.size a
  k0_mult2_dvd : ∀ k0_t1 : Fin k0_t1_loop.trips, 8 ∣ (k0_mult2 k0_t1).toNat
  k0_off2_inb : ∀ k0_t1 : Fin k0_t1_loop.trips, ∀ a, (k0_off2 k0_t1) a + S8x128.size a ≤ S32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S512x128.size a
  hwx0_2 : ∀ i : grid0.Coords, EltTy.bits .f32 = 32 ∨ (Rect.block (s := S512x128) S32x128.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S_ : Shape := ⟨0, ![]⟩
abbrev S65536 : Shape := ⟨1, ![65536]⟩
abbrev S65536x1 : Shape := ⟨2, ![65536, 1]⟩

abbrev nBuf : Space → Nat
  | .hbm => 7
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S65536x512, .f32⟩
  | .hbm, ⟨3, _⟩ => ⟨S65536x512, .f32⟩
  | .hbm, ⟨4, _⟩ => ⟨S_, .f32⟩
  | .hbm, ⟨5, _⟩ => ⟨S65536, .f32⟩
  | .hbm, ⟨6, _⟩ => ⟨S65536x1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.QuadSpec.lean ====
/-
  The quadratic form of one row, and the column of all of them.

  For a row `r` of 512 extended reals and a 512 × 512 matrix `q`, the number `r · q · rᵀ` written as the sum
  over the columns `j` of `(∑ₖ r k · q k j) · r j`: the row is first multiplied into the matrix, the product is
  multiplied entry by entry with the row again, and the entries are added up.  Both programs compute this number for
  every row of `x`; no rearrangement of the sums is needed, so no finiteness is asked of the entries.
-/
import Idealize.ShloMosaic.PureOps.Ideal
import Idealize.ShloMosaic.Lib.ValueIdx

namespace Cert.QuadForm

open scoped BigOperators
open Idealize.ShloMosaic Idealize.ShloMosaic.ValueIdx

/-- `∑ⱼ (∑ₖ r k · q k j) · r j`: the diagonal entry of `x · Q · xᵀ` that belongs to the row `r` of `x`. -/
noncomputable def rowForm (r : Fin 512 → EReal) (q : Fin 512 → Fin 512 → EReal) : EReal :=
  ∑ j : Fin 512, (∑ k : Fin 512, r k * q k j) * r j

/-- The result both programs end with: the column [65536, 1] whose entry `(b, 0)` is the quadratic form of row `b`
    of `x` in `Q`. -/
noncomputable def quadColumn (x : (⟨2, ![65536, 512]⟩ : Shape).Idx → EReal) (Q : (⟨2, ![512, 512]⟩ : Shape).Idx → EReal) :
    (⟨2, ![65536, 1]⟩ : Shape).Idx → EReal :=
  fun i => rowForm (fun k => x (ix2 (i 0) k)) (fun k j => Q (ix2 k j))

end Cert.QuadForm
-- ==== Proof.RefSide.lean ====
/-
  The reference, read at an index.

  The reference multiplies `x` [65536, 512] into `Q` [512, 512], multiplies the product entry by entry with `x`, sums
  every row from the initial value zero, and lays the 65536 sums out as a column [65536, 1].  At the entry `(b, 0)`
  of the column this is `0 + ∑ⱼ (∑ₖ x[b, k] · Q[k, j]) · x[b, j]`, the quadratic form of row `b`.
-/
import proofs.«180952_j438086664317_2_alg».proof.Proof.Gen.ReferenceIdeal.Read
import proofs.«180952_j438086664317_2_alg».proof.Proof.QuadSpec
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx
open Cert.ReferenceIdeal Cert.ReferenceIdeal.Read Cert.QuadForm

/-- Entry `(b, u)` of the reference's result column is the quadratic form of row `b` of `x` in `Q`. -/
theorem result_apply (x : S65536x512.Idx → EReal) (Q : S512x512.Idx → EReal) (b : Fin 65536) (u : Fin 1) :
    val_main_v3 (F := Ideal) x Q (ix2 b u) = rowForm (fun k => x (ix2 b k)) (fun k j => Q (ix2 k j)) := by
  rw [val_main_v3_apply, val_main_v2_apply]
  unfold rowForm
  rw [val_main_cst_apply, Ideal.ofBits_def, Ideal.ofBits_zero_f32, zero_add]
  refine Finset.sum_congr rfl fun j _ => ?_
  rw [val_main_v1_apply, val_main_v0_apply]
  show (∑ k : Fin 512, x (lidx_main_v0 (idx_main_v2 (idx_main_v3 (ix2 b u)) j) k)
      * Q (ridx_main_v0 (idx_main_v2 (idx_main_v3 (ix2 b u)) j) k)) * x (idx_main_v2 (idx_main_v3 (ix2 b u)) j) = _
  have e0 : idx_main_v2 (idx_main_v3 (ix2 b u)) j = ix2 b j :=
    funext fun a => Fin.ext (by match a with | ⟨0, _⟩ => rfl | ⟨1, _⟩ => rfl)
  have el : ∀ k : Fin 512, lidx_main_v0 (ix2 b j) k = ix2 b k := fun k =>
    funext fun a => Fin.ext (by match a with | ⟨0, _⟩ => rfl | ⟨1, _⟩ => rfl)
  have er : ∀ k : Fin 512, ridx_main_v0 (ix2 b j) k = ix2 k j := fun k =>
    funext fun a => Fin.ext (by match a with | ⟨0, _⟩ => rfl | ⟨1, _⟩ => rfl)
  rw [e0]
  simp only [el, er]

/-- So the reference's result column is the column of quadratic forms. -/
theorem result_eq (x : S65536x512.Idx → EReal) (Q : S512x512.Idx → EReal) :
    val_main_v3 (F := Ideal) x Q = quadColumn x Q := funext fun i => by
  obtain ⟨b, u, rfl⟩ : ∃ (b : Fin 65536) (u : Fin 1), i = ix2 b u := ⟨i 0, i 1, eq_ix2 i⟩
  exact result_apply x Q b u

end Cert.RefSide

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Payload.lean ====
/-
  The value one trip of the kernel's loop stores, read at an index.

  A trip takes a chunk of 1024 rows of `x`, multiplies it into the resident matrix `q` (both read as extended reals:
  the change of float format is the identity), multiplies the product entry by entry with the chunk, sums every row,
  and lays the 1024 sums out as 8 rows of 128 lanes.  Lane `l` of row `r` therefore holds the quadratic form of
  the chunk's row `128 r + l`.
-/
import proofs.«180952_j438086664317_2_alg».proof.Proof.Gen.KernelIdeal.Skeleton
import proofs.«180952_j438086664317_2_alg».proof.Proof.QuadSpec
import proofs.«180952_j438086664317_2_alg».proof.Proof.LibLayout
import Idealize.ShloMosaic.Lib.ValueIdx
import Idealize.ShloMosaic.Lib.Pipeline.Value
import Idealize.ShloMosaic.PureOps.Ideal.Laws

noncomputable section

namespace Cert.KernelSide

open Idealize.ShloMosaic Idealize.ShloMosaic.ValueIdx
open Cert.KernelIdeal Cert.KernelIdeal.Gen Cert.QuadForm

/-- The product's record: the free axis of the left operand is the result's first axis, -/
theorem dot_lhs0 (j : S1024x512.Idx) (k : dot_S1024x512_S512x512_S1024x512_1_0_0_1_n_n.contr.Idx) :
    (dot_S1024x512_S512x512_S1024x512_1_0_0_1_n_n.lhsIdx j k 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

/-- and the free axis of the right operand is the result's second axis. -/
theorem dot_rhs1 (j : S1024x512.Idx) (k : dot_S1024x512_S512x512_S1024x512_1_0_0_1_n_n.contr.Idx) :
    (dot_S1024x512_S512x512_S1024x512_1_0_0_1_n_n.rhsIdx j k 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Lane `l` of row `r` of the stored [8, 128] tile is the quadratic form, in `q`, of row `128 r + l` of the chunk. -/
theorem pay_apply (q : Vec Ideal S512x512 .bf16) (x : Vec Ideal S1024x512 .f32) (r : Fin 8) (l : Fin 128) :
    k0_pay1 (F := Ideal) q x (ix2 r l)
      = rowForm (fun k => x (ix2 (⟨r.val * 128 + l.val, by omega⟩ : Fin 1024) k)) (fun k j => q (ix2 k j)) := by
  unfold k0_pay1
  -- the [1024, 1] column re-laid as [8, 128]: the same row-major position
  refine (shapeCast_apply _ shapeCasts_S1024x1_S8x128 (ix2 r l)
    (ix2 (⟨r.val * 128 + l.val, by omega⟩ : Fin 1024) (0 : Fin 1)) ?_).trans ?_
  · rw [Shape.rowMajor_val_two, Shape.rowMajor_val_two]
    show (r.val * 128 + l.val) * 1 + 0 = r.val * 128 + l.val
    omega
  -- the vector of row sums stood up as a column
  refine (Cert.LibLayout.shapeCast_a_a1_apply _ shapeCasts_S1024_S1024x1 _ _).trans ?_
  -- a row sum
  refine (Cert.LibLayout.sum_rows_apply _ reduces_S1024x512_S1024 (.inl rfl) rfl _).trans ?_
  unfold rowForm
  refine Finset.sum_congr rfl fun j _ => ?_
  -- the product with the chunk, entry by entry, and the matrix product as a sum
  refine congrArg (· * x (ix2 (⟨r.val * 128 + l.val, by omega⟩ : Fin 1024) j)) ?_
  refine (Cert.LibLayout.matmul_rows_cols_apply dot_S1024x512_S512x512_S1024x512_1_0_0_1_n_n rfl rfl rfl rfl
    dot_lhs0 dot_rhs1 none _ _ _ j).trans ?_
  rw [shapeCast_self]
  rfl

end Cert.KernelSide

end
-- ==== Proof.BodyValue.lean ====
/-
  What the kernel body leaves in the output block of one grid point.

  The body runs four trips.  Trip `k` reads rows `1024 k … 1024 k + 1023` of the point's [4096, 512] block of `x`,
  and stores the [8, 128] tile of their quadratic forms at rows `8 k … 8 k + 7` of the [32, 128] output block.  Row
  `8 k + r`, lane `l` of the output block therefore belongs to row `1024 k + 128 r + l = 128 (8 k + r) + l` of the
  input block: every stored tile is a restriction of ONE function of the output block's index, `(y₀, y₁) ↦` the
  quadratic form of row `128 y₀ + y₁`.  The four tiles cover the block, so the block ends holding that function.
-/
import proofs.«180952_j438086664317_2_alg».proof.Proof.Gen.KernelIdeal.Frame
import proofs.«180952_j438086664317_2_alg».proof.Proof.Payload
import Idealize.ShloMosaic.Lib.Pipeline.Value
import Idealize.ShloMosaic.Lib.Writes

noncomputable section

namespace Cert.KernelSide

open Idealize.ShloMosaic Idealize.ShloMosaic.TcCoe Idealize.ShloMosaic.ValueIdx Idealize.SL.Sem
open Cert.KernelIdeal Cert.KernelIdeal.Gen Cert.QuadForm

/-- The output block as one function of its index: entry `(y₀, y₁)` is the quadratic form, in `q`, of row
    `128 y₀ + y₁` of the input block `x0`. -/
def blockForm (x0 : S4096x512.Idx → EReal) (q : S512x512.Idx → EReal) : S32x128.Idx → EReal := fun y =>
  rowForm (fun k => x0 (ix2 (⟨(y 0).val * 128 + (y 1).val, by
      have h0 : (y 0).val < 32 := idx2_lt0 y
      have h1 : (y 1).val < 128 := idx2_lt1 y
      omega⟩ : Fin 4096) k)) (fun k j => q (ix2 k j))

theorem hz : (![0, 0] : Fin 2 → Nat) = fun _ => 0 := funext fun a => by fin_cases a <;> rfl

/-- The tile trip `k` stores is the restriction of `blockForm` to the rectangle it is stored through. -/
theorem trip_piece (a1 : Memref sig .tc .vmem S4096x512 .f32) (v0 : Vec Ideal S512x512 .bf16)
    (X : BufTy.Contents (Elt Ideal) a1.view.ty) (k : Fin k0_t1_loop.trips) (x : S8x128.Idx) :
    k0_pay1 (F := Ideal) v0 (View.readAt (Elt Ideal) a1.view
        (Rect.unit (s := S4096x512) (k0_off1 k) S1024x512.size (k0_off1_inb k)).toLoadRect X) x
      = blockForm (a1.view.read (Elt Ideal) X) v0
          ((Rect.unit (s := S32x128) (k0_off2 k) S8x128.size (k0_off2_inb k)).emb x) := by
  obtain ⟨r, l, rfl⟩ : ∃ (r : Fin 8) (l : Fin 128), x = ix2 r l := ⟨x 0, x 1, eq_ix2 x⟩
  refine (pay_apply _ _ r l).trans ?_
  unfold blockForm
  refine congrArg (fun f => rowForm f _) (funext fun kk => ?_)
  rw [View.readAt_eq_ld]
  show a1.view.read (Elt Ideal) X ((Rect.unit (s := S4096x512) (k0_off1 k) S1024x512.size (k0_off1_inb k)).idx _) = _
  refine congrArg _ (funext fun a => Fin.ext ?_)
  have e1 := k0_off1_eq k
  have e2 := k0_off2_eq k
  have hr : r.val < 8 := r.isLt
  have hl : l.val < 128 := l.isLt
  match a with
  | ⟨0, _⟩ =>
    show k0_off1 k 0 + 1 * (r.val * 128 + l.val) = (k0_off2 k 0 + 1 * r.val) * 128 + (k0_off2 k 1 + 1 * l.val)
    rw [e1, e2]
    show 1024 * k.val + 1 * (r.val * 128 + l.val) = (8 * k.val + 1 * r.val) * 128 + (0 + 1 * l.val)
    omega
  | ⟨1, _⟩ =>
    show k0_off1 k 1 + 1 * kk.val = kk.val
    rw [e1]
    show 0 + 1 * kk.val = kk.val
    omega

variable {F : FTy → Type} [FloatOps F]

/-- One trip stores one tile: through the rectangle at rows `8 k …`, the payload of the chunk at rows `1024 k …`. -/
theorem tripL_eq (𝒱 : Variants) (c : Dev nD) (bd : Option 𝒱.V) (i : grid0.Coords)
    (a1 : Memref sig .tc .vmem S4096x512 .f32) (h1 : a1.IsWhole) (a2 : Memref sig .tc .vmem S512x512 .bf16) (h2 : a2.IsWhole)
    (a3 : Memref sig .tc .vmem S32x128 .f32) (h3 : a3.IsWhole) (v0 : Vec F S512x512 .bf16)
    (X : BufTy.Contents (Elt F) a1.view.ty) (k : Fin k0_t1_loop.trips) :
    tripL_k0_t1 (F := F) 𝒱 c bd i a1 h1 a2 h2 a3 h3 v0 X k
      = [⟨Rect.unit (s := S32x128) (k0_off2 k) S8x128.size (k0_off2_inb k),
          k0_pay1 v0 (View.readAt (Elt F) a1.view (Rect.unit (s := S4096x512) (k0_off1 k) S1024x512.size (k0_off1_inb k)).toLoadRect X)⟩] := by
  unfold tripL_k0_t1 trip_k0_t1
  rfl

/-- Every tile stored by the trips before `n` is a restriction of `blockForm`: by induction on `n`. -/
theorem pieces_agree (𝒱 : Variants) (c : Dev nD) (bd : Option 𝒱.V) (i : grid0.Coords)
    (a1 : Memref sig .tc .vmem S4096x512 .f32) (h1 : a1.IsWhole) (a2 : Memref sig .tc .vmem S512x512 .bf16) (h2 : a2.IsWhole)
    (a3 : Memref sig .tc .vmem S32x128 .f32) (h3 : a3.IsWhole) (v0 : Vec Ideal S512x512 .bf16)
    (X : BufTy.Contents (Elt Ideal) a1.view.ty) :
    ∀ (n : ℕ), ∀ p ∈ pb_k0_t1 (F := Ideal) 𝒱 c bd i a1 h1 a2 h2 a3 h3 v0 X n, ∀ x : p.1.shape.Idx,
      p.2 x = blockForm (a1.view.read (Elt Ideal) X) v0 (p.1.emb x)
  | 0 => by
    intro p hp
    rw [pb_k0_t1.eq_1] at hp
    exact absurd hp List.not_mem_nil
  | n + 1 => by
    intro p hp x
    rw [pb_k0_t1.eq_2] at hp
    unfold pb_k0_t1Step at hp
    split at hp
    · rename_i hn
      rcases List.mem_append.mp hp with h | h
      · rw [tripL_eq, List.mem_singleton] at h
        subst h
        exact trip_piece a1 v0 X ⟨n, hn⟩ x
      · exact pieces_agree 𝒱 c bd i a1 h1 a2 h2 a3 h3 v0 X n p h x
    · exact pieces_agree 𝒱 c bd i a1 h1 a2 h2 a3 h3 v0 X n p hp x

/-- THE BODY'S VALUE: after the body, entry `y` of the output block is `blockForm` of the input block and the
    resident matrix. -/
theorem out_apply (c : Dev nD) (i : grid0.Coords) (a1 : Memref sig .tc .vmem S4096x512 .f32) (h1 : a1.IsWhole)
    (a2 : Memref sig .tc .vmem S512x512 .bf16) (h2 : a2.IsWhole) (a3 : Memref sig .tc .vmem S32x128 .f32) (h3 : a3.IsWhole)
    (x0 : Vec Ideal S4096x512 .f32) (x1 : Vec Ideal S512x512 .bf16) (y : S32x128.Idx) :
    out0_A_2 (F := Ideal) c i a1 h1 a2 h2 a3 h3 x0 x1 y = blockForm x0 x1 y := by
  unfold out0_A_2
  refine View.read_writes_apply_of_pieces VO0_2 _ (blockForm x0 x1) _ ?_ y (cover0_A_2 c i a1 h1 a2 h2 a3 h3 x0 x1 y)
  have hL : (kernelRun0_A (F := Ideal) c i a1 h1 a2 h2 a3 h3 x0 x1).1
      = pb_k0_t1 (F := Ideal) Variants.none c none i a1 h1 a2 h2 a3 h3
          (View.readAt (Elt Ideal) a2.view (Rect.unit (s := S512x512) ![0, 0] S512x512.size inb_S512x512_S512x512_0_0).toLoadRect (h2.unread x1))
          (h1.unread x0) k0_t1_loop.trips := by
    unfold kernelRun0_A
    rfl
  have e1 : a1.view.read (Elt Ideal) (h1.unread x0) = x0 := h1.read_unread x0
  have e2 : View.readAt (Elt Ideal) a2.view (Rect.unit (s := S512x512) ![0, 0] S512x512.size inb_S512x512_S512x512_0_0).toLoadRect (h2.unread x1) = x1 := by
    rw [View.readAt_eq_ld, h2.read_unread, View.ld_unit_zero (S := S512x512) hz]
  intro p hp x
  rw [hL] at hp
  have h := pieces_agree Variants.none c none i a1 h1 a2 h2 a3 h3 _ _ _ p hp x
  rw [e1, e2] at h
  exact h

end Cert.KernelSide

end
-- ==== Proof.ArrayValue.lean ====
/-
  From the output blocks to the kernel's result.

  Grid point `t` (of 16) reads rows `4096 t …` of `x` and the whole matrix `q` (the host's copy of `Q` in the
  narrower float format: the same extended reals), and writes back rows `32 t …` of the [512, 128] array.  Row
  `32 t + y₀`, lane `y₁` of that array belongs to row `4096 t + 128 y₀ + y₁ = 128 (32 t + y₀) + y₁` of `x`, so
  every block written back is a block of ONE function of the array's index, `(R, l) ↦` the quadratic form of row
  `128 R + l` of `x`; the 16 blocks cover the array.  The host then re-lays the [512, 128] array as the column
  [65536, 1]: entry `(b, 0)` is the array's entry `(b / 128, b % 128)`, the quadratic form of row `b`.
-/
import proofs.«180952_j438086664317_2_alg».proof.Proof.BodyValue
import Idealize.ShloMosaic.Lib.StableHlo.Run
import Idealize.ShloMosaic.Lib.Tactic

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.QuadForm

variable (m : (ℓ : Loc nD τ sig) → Buf (Elt Ideal) ℓ) (ρ : Dev nD → PrngReg)

/-- The [512, 128] array as one function of its index: entry `(R, l)` is the quadratic form, in `q`, of row
    `128 R + l` of `x`. -/
def arrForm (x : S65536x512.Idx → EReal) (q : S512x512.Idx → EReal) : S512x128.Idx → EReal := fun i =>
  rowForm (fun k => x (ix2 (⟨(i 0).val * 128 + (i 1).val, by
      have h0 : (i 0).val < 512 := idx2_lt0 i
      have h1 : (i 1).val < 128 := idx2_lt1 i
      omega⟩ : Fin 65536) k)) (fun k j => q (ix2 k j))

/-- Where the windows' blocks sit at grid point `t`: the block of `x` and the output block at block row `t`, the
    matrix always at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `arrForm` of the arrays as the region finds them. -/
theorem flushed_eq (c : Dev nD) (t : Fin cfg0.N) :
    (dats m 0 c).flushed 2 t
      = ((cfg0.win 2).blk t).view.read (Elt Ideal) (arrForm (V m c main_arg0) (V m c main_v0)) := by
  show (cfg0.win 2).cut (grid0.coords t) ((dats m 0 c).after 2 t) = _
  rw [after0_2]
  unfold outsAt0
  obtain ⟨e0, e1, e2, e3, e4, e5⟩ := idx_facts t
  funext y
  show out0_A_2 (F := Ideal) c (grid0.coords t) (ms0_0 t) (hs0_0 t) (ms0_1 t) (hs0_1 t) (ms0_2 t) (hs0_2 t) (iblk m c 0 t) (iblk m c 1 t) y
    = arrForm (V m c main_arg0) (V m c main_v0) (((cfg0.win 2).blk t).view.emb y)
  refine (out_apply c (grid0.coords t) (ms0_0 t) (hs0_0 t) (ms0_1 t) (hs0_1 t) (ms0_2 t) (hs0_2 t) (iblk m c 0 t) (iblk m c 1 t) y).trans ?_
  have hy0 : (y 0).val < 32 := idx2_lt0 y
  have hy1 : (y 1).val < 128 := idx2_lt1 y
  unfold blockForm arrForm
  refine congrArg₂ rowForm (funext fun k => ?_) (funext fun k => funext fun j => ?_)
  · -- the block of x read at row 128 y₀ + y₁ is x read at row 128 (32 t + y₀) + y₁
    show V m c main_arg0 (((cfg0.win 0).blk t).view.emb _) = V m c main_arg0 _
    refine congrArg _ (funext fun a => Fin.ext ?_)
    match a with
    | ⟨0, _⟩ =>
      show win0_0.index t (0 : Fin 2) * 4096 + 1 * ((y 0).val * 128 + (y 1).val)
        = (win0_2.index t (0 : Fin 2) * 32 + 1 * (y 0).val) * 128 + (win0_2.index t (1 : Fin 2) * 128 + 1 * (y 1).val)
      omega
    | ⟨1, _⟩ =>
      show win0_0.index t (1 : Fin 2) * 512 + 1 * k.val = k.val
      omega
  · -- the matrix's one block is the matrix
    show V m c main_v0 (((cfg0.win 1).blk t).view.emb _) = V m c main_v0 _
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 512 + 1 * j.val = j.val
      omega

/-- An index of the array is in point `t`'s block iff each coordinate is in the block's range on its axis. -/
theorem mem_blk (t : Fin cfg0.N) (i : S512x128.Idx) :
    i ∈ ((cfg0.win 2).blk t).view.set
      ↔ ∀ a : Fin 2, win0_2.index t a * S32x128.size a ≤ (i a).val ∧ (i a).val < win0_2.index t a * S32x128.size a + S32x128.size a := by
  show i ∈ ((View.whole main_v1).slice (win0_2.rect t)).set ↔ _
  rw [View.set_slice_whole, Rect.mem_set_unit]
  exact Iff.rfl

/-- Every row `R` of the array lies in the block of point `R / 32`. -/
theorem cover (i : S512x128.Idx) :
    ∃ t : Fin cfg0.N, (cfg0.win 2).flush t = true ∧ i ∈ ((cfg0.win 2).blk t).view.set := by
  have hN : cfg0.N = 16 := N_0
  have hi0 : (i 0).val < 512 := idx2_lt0 i
  have hi1 : (i 1).val < 128 := idx2_lt1 i
  refine ⟨⟨(i 0).val / 32, by omega⟩, flush0_2 _, ?_⟩
  rw [mem_blk]
  obtain ⟨-, -, -, -, e4, e5⟩ := idx_facts ⟨(i 0).val / 32, by omega⟩
  intro a
  match a with
  | ⟨0, _⟩ =>
    show win0_2.index ⟨(i 0).val / 32, _⟩ (0 : Fin 2) * 32 ≤ (i 0).val ∧ (i 0).val < win0_2.index ⟨(i 0).val / 32, _⟩ (0 : Fin 2) * 32 + 32
    rw [e4]
    show (i 0).val / 32 * 32 ≤ (i 0).val ∧ (i 0).val < (i 0).val / 32 * 32 + 32
    omega
  | ⟨1, _⟩ =>
    show win0_2.index ⟨(i 0).val / 32, _⟩ (1 : Fin 2) * 128 ≤ (i 1).val ∧ (i 1).val < win0_2.index ⟨(i 0).val / 32, _⟩ (1 : Fin 2) * 128 + 128
    rw [e5]
    omega

/-- THE ARRAY after the region: `arrForm` of the arrays as the region finds them. -/
theorem final (c : Dev nD) : (dats m 0 c).arrAt 2 cfg0.N = arrForm (V m c main_arg0) (V m c main_v0) :=
  (dats m 0 c).arrAt_eq_of_cover 2 (arrForm (V m c main_arg0) (V m c main_v0)) (fun t _ => flushed_eq m c t) cover

/-- The matrix the region finds is the host's copy of `Q` in the narrower format: the same extended reals. -/
theorem V_q (c : Dev nD) : (V m c main_v0 : S512x512.Idx → EReal) = m ((c : Thread nD τ).loc main_arg1) := by
  show StableHlo.after hostOps0 (fun b => m (c, b)) (Proc.devRef .tc main_v0) = _
  after_results
  rfl

/-- The column the host lays the array out as, at `(b, u)`: the quadratic form of row `b`. -/
theorem column_apply (x : S65536x512.Idx → EReal) (q : S512x512.Idx → EReal) (i : S65536x1.Idx) :
    shapeCast S65536x1 (arrForm x q) shapeCasts_S512x128_S65536x1 i = quadColumn x q i := by
  obtain ⟨b, u, rfl⟩ : ∃ (b : Fin 65536) (u : Fin 1), i = ix2 b u := ⟨i 0, i 1, eq_ix2 i⟩
  have hb : b.val < 65536 := b.isLt
  have hu : u.val = 0 := by omega
  refine (shapeCast_apply _ shapeCasts_S512x128_S65536x1 (ix2 b u)
    (ix2 (⟨b.val / 128, by omega⟩ : Fin 512) (⟨b.val % 128, by omega⟩ : Fin 128)) ?_).trans ?_
  · rw [Shape.rowMajor_val_two, Shape.rowMajor_val_two]
    show b.val / 128 * 128 + b.val % 128 = b.val * 1 + u.val
    omega
  unfold arrForm quadColumn
  refine congrArg (fun f => rowForm f _) (funext fun k => congrArg x (funext fun a => Fin.ext ?_))
  match a with
  | ⟨0, _⟩ =>
    show b.val / 128 * 128 + b.val % 128 = b.val
    omega
  | ⟨1, _⟩ => rfl

/-- The kernel's result after the host's re-layout. -/
theorem tail_eq (c : Dev nD) :
    Pipeline.afterTail₀ cfgs (dats m) 0 (V0 m) [hostOps1] c main_v2
      = quadColumn (m ((c : Thread nD τ).loc main_arg0)) (m ((c : Thread nD τ).loc main_arg1)) := by
  unfold Pipeline.afterTail₀
  show StableHlo.after hostOps1 _ (Proc.devRef .tc main_v2) = _
  after_results
  refine funext fun i => ?_
  show shapeCast S65536x1 (Pipeline.withArrays (cfgs 0).spec c (V0 m c) (fun w => (dats m 0 c).arrAt w (cfgs 0).N)
    (Proc.devRef .tc main_v1)) shapeCasts_S512x128_S65536x1 i = _
  rw [show Pipeline.withArrays (cfgs 0).spec c (V0 m c) (fun w => (dats m 0 c).arrAt w (cfgs 0).N) (Proc.devRef .tc main_v1)
      = arrForm (V m c main_arg0) (V m c main_v0) from
    (Pipeline.withArrays_arr spec0 launch0.win.arr_inj c _ _ 2).trans (final m c)]
  rw [column_apply, V_main_arg0, V_q]

/-- THE KERNEL'S RUN, READ: every weakly fair execution ends with the result at the column of quadratic forms of the
    rows of `x` in `Q`, and both arguments as they were. -/
theorem run : θ_run defs (onTc (τ := τ) (main (F := Ideal))) ⟨m, fun _ => 0, ρ⟩ fun r => ∀ c : Dev nD,
      r.2.mem ((c.tc : Thread nD τ).loc main_v2)
        = quadColumn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelSide

end
-- ==== Proof.lean ====
/-
  The kernel and its reference compute, for every row `b` of `x` [65536, 512], the quadratic form
  `x[b, :] · Q · x[b, :]ᵀ = ∑ⱼ (∑ₖ x[b, k] · Q[k, j]) · x[b, j]`, and return the 65536 numbers as a column.

  The reference does it in one piece: `x · Q`, times `x` entry by entry, a sum over each row from zero, a column.
  The kernel walks the rows in 16 blocks of 4096, each block in four chunks of 1024: a chunk is multiplied into the
  resident copy of `Q` (a copy in a narrower float format, which over the extended reals is `Q` itself), multiplied
  entry by entry with the chunk, summed along each row, and the 1024 sums are stored as an [8, 128] tile of the
  [512, 128] output; the host finally re-lays that array as the column.  Both sides add the same products in the same
  grouping, so they agree on all extended reals: the finiteness of the inputs is never used, and the only work is to
  follow one row's number through the tiles, the blocks and the re-layout (`128 (8 k + r) + l = 1024 k + 128 r + l`,
  `128 (32 t + y) + l = 4096 t + 128 y + l`, `128 (b / 128) + b % 128 = b`).

  The three frames are the generated ones (the reference's is its generated run with the result dropped); the kernel's
  idealization changed no operation, so that conjunct is `True`.
-/
import proofs.«180952_j438086664317_2_alg».proof.Defs
import proofs.«180952_j438086664317_2_alg».proof.Proof.Gen.Kernel
import proofs.«180952_j438086664317_2_alg».proof.Proof.Gen.Kernel.Skeleton
import proofs.«180952_j438086664317_2_alg».proof.Proof.Gen.Kernel.Loops
import proofs.«180952_j438086664317_2_alg».proof.Proof.Gen.Kernel.Launch
import proofs.«180952_j438086664317_2_alg».proof.Proof.Gen.Kernel.Points
import proofs.«180952_j438086664317_2_alg».proof.Proof.Gen.Kernel.Frame
import proofs.«180952_j438086664317_2_alg».proof.Proof.Gen.KernelIdeal
import proofs.«180952_j438086664317_2_alg».proof.Proof.Gen.KernelIdeal.Skeleton
import proofs.«180952_j438086664317_2_alg».proof.Proof.Gen.KernelIdeal.Loops
import proofs.«180952_j438086664317_2_alg».proof.Proof.Gen.KernelIdeal.Launch
import proofs.«180952_j438086664317_2_alg».proof.Proof.Gen.KernelIdeal.Points
import proofs.«180952_j438086664317_2_alg».proof.Proof.Gen.KernelIdeal.Frame
import proofs.«180952_j438086664317_2_alg».proof.Proof.Gen.ReferenceIdeal
import proofs.«180952_j438086664317_2_alg».proof.Proof.Gen.ReferenceIdeal.Run
import proofs.«180952_j438086664317_2_alg».proof.Proof.Gen.ReferenceIdeal.Read
import proofs.«180952_j438086664317_2_alg».proof.Proof.Gen.Pre_finite_inputs
import proofs.«180952_j438086664317_2_alg».proof.Proof.RefSide
import proofs.«180952_j438086664317_2_alg».proof.Proof.ArrayValue
import Idealize.ShloMosaic.Adequacy
import Idealize.ShloMosaic.Init

noncomputable section

namespace Cert.Proof

open Idealize.ShloMosaic Idealize.SL.Sem

/-- Run from memories that agree on `x` and `Q`, both idealized programs end with the column of quadratic forms of
    the rows of `x` in `Q`, and with their arguments unchanged. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.QuadForm.quadColumn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  exact Cert.RefSide.result_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
